-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S800000 32) (main_arg2 : IVec S800000 32) (main_arg3 : FVec F S800000 .f32) (main_arg4 : FVec F S128x64 .f32) (main_arg5 : FVec F S64 .f32) (main_arg6 : FVec F S64x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S50000x64 : Shape := ⟨2, ![50000, 64]⟩
abbrev S2000x128 : Shape := ⟨2, ![2000, 128]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 46
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S50000x64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S800000x1, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S800000x1, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S1x64, .f32⟩
  | .hbm, ⟨45, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S50000x64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S800000x1, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | .hbm, ⟨28, _⟩ => ⟨S_, .f32⟩
  | .hbm, ⟨29, _⟩ => ⟨S50000x64, .f32⟩
  | .hbm, ⟨30, _⟩ => ⟨S50000x64, .f32⟩
  | .hbm, ⟨31, _⟩ => ⟨S50000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S800000x1, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The program's run, with its result named.

  Every weakly fair execution of the program from a memory with zero counters terminates without a fault; its
  result array then holds what the last boundary of the run holds at that array — the contents the fourth region's
  write-backs leave —, and every argument array is as launched. The run is the launch of the program's six
  segments (four regions among two stretches of host operations), each entered from the contents the previous
  one leaves; the final state is read against the last boundary's contents.
-/
import proofs.«152942_j82660940579212_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Named

end
-- ==== Proof.Spec.lean ====
/-
  What the program computes, as whole-array functions on the extended reals.

  Two graph-convolution layers. A layer multiplies its input by a weight matrix, aggregates the product's rows
  along the edges of a sparse matrix given in coordinate form, and adds a bias row to every row; the first layer
  then takes the maximum with zero.

  * `prod1`, `prod2` — a matrix product entry by entry: entry `(r, j)` is the sum over `k` of `x (r, k) · w (k, j)`.
  * `aggregate` — the sparse aggregation `out[row e] += val e · d[col e]` over the 800000 edges, a negative column
    index first shifted up by the number of nodes: index arithmetic, a row gather, a product with the edge weights
    and a scatter-add into a zero array. Both programs apply this one composition, so their aggregates agree as
    soon as the arrays they aggregate agree.
  * `rowBiasRelu`, `rowBias` — `max (a (r, j) + b (0, j)) 0` and `a (r, j) + b (0, j)` with the bias held as one row.
  * `layers` — the whole program.
-/
import proofs.«152942_j82660940579212_1_alg».proof.Proof.Gen.KernelIdeal
import Idealize.ShloMosaic.PureOps.Ideal
import Idealize.ShloMosaic.Lib.ValueIdx

noncomputable section

open scoped BigOperators

namespace Cert.KernelIdeal.Spec

open Idealize.ShloMosaic Idealize.ShloMosaic.ValueIdx Cert.KernelIdeal Cert.KernelIdeal.Gen

/-- The first product, 50000×128 by 128×64, entry by entry. -/
def prod1 (x : (⟨S50000x128, .f32⟩ : BufTy).Contents (Elt Ideal)) (w : (⟨S128x64, .f32⟩ : BufTy).Contents (Elt Ideal)) :
    (⟨S50000x64, .f32⟩ : BufTy).Contents (Elt Ideal) :=
  fun i => ∑ k : Fin 128, x (ix2 (n0 := 50000) (i 0) k) * w (ix2 (n1 := 64) k (i 1))

/-- The second product, 50000×64 by 64×64, entry by entry. -/
def prod2 (h : (⟨S50000x64, .f32⟩ : BufTy).Contents (Elt Ideal)) (w : (⟨S64x64, .f32⟩ : BufTy).Contents (Elt Ideal)) :
    (⟨S50000x64, .f32⟩ : BufTy).Contents (Elt Ideal) :=
  fun i => ∑ k : Fin 64, h (ix2 (n0 := 50000) (i 0) k) * w (ix2 (n1 := 64) k (i 1))

/-- The sparse aggregation of the rows of `d` along the edges `(row e, col e)` with weights `val e`. -/
def aggregate (row col : (⟨S800000, .i32⟩ : BufTy).Contents (Elt Ideal)) (val : (⟨S800000, .f32⟩ : BufTy).Contents (Elt Ideal))
    (d : (⟨S50000x64, .f32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 row)
    (mulf (F := Ideal)
      (Host.gather gather_S50000x64_S800000x1_S800000x64_1_0_n_n_0_1_164 d
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col)))
      (broadcastInDim S800000x64 ![0, 1] bcast_S800000x1_S800000x64_0_1
        (broadcastInDim S800000x1 ![0] bcast_S800000_S800000x1_0 val)))

/-- A bias row added to every row, then the maximum with zero. -/
def rowBiasRelu (a : (⟨S50000x64, .f32⟩ : BufTy).Contents (Elt Ideal)) (b : (⟨S1x64, .f32⟩ : BufTy).Contents (Elt Ideal)) :
    (⟨S50000x64, .f32⟩ : BufTy).Contents (Elt Ideal) :=
  fun i => max (a i + b (ix2 (n0 := 1) 0 (i 1))) (Ideal.ofBits .f32 0x00000000#32)

/-- A bias row added to every row. -/
def rowBias (a : (⟨S50000x64, .f32⟩ : BufTy).Contents (Elt Ideal)) (b : (⟨S1x64, .f32⟩ : BufTy).Contents (Elt Ideal)) :
    (⟨S50000x64, .f32⟩ : BufTy).Contents (Elt Ideal) :=
  fun i => a i + b (ix2 (n0 := 1) 0 (i 1))

/-- A bias vector laid out as one row. -/
def asRow (b : (⟨S64, .f32⟩ : BufTy).Contents (Elt Ideal)) : (⟨S1x64, .f32⟩ : BufTy).Contents (Elt Ideal) :=
  fun i => shapeCast S1x64 b shapeCasts_S64_S1x64 i

/-- The two layers. -/
def layers (x : (⟨S50000x128, .f32⟩ : BufTy).Contents (Elt Ideal)) (row col : (⟨S800000, .i32⟩ : BufTy).Contents (Elt Ideal))
    (val : (⟨S800000, .f32⟩ : BufTy).Contents (Elt Ideal)) (w1 : (⟨S128x64, .f32⟩ : BufTy).Contents (Elt Ideal))
    (b1 : (⟨S64, .f32⟩ : BufTy).Contents (Elt Ideal)) (w2 : (⟨S64x64, .f32⟩ : BufTy).Contents (Elt Ideal))
    (b2 : (⟨S64, .f32⟩ : BufTy).Contents (Elt Ideal)) : (⟨S50000x64, .f32⟩ : BufTy).Contents (Elt Ideal) :=
  rowBias (aggregate row col val (prod2 (rowBiasRelu (aggregate row col val (prod1 x w1)) (asRow b1)) w2)) (asRow b2)

end Cert.KernelIdeal.Spec

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.Reg0.lean ====
/-
  The first region: the product `x · W1`, 2000 rows at a time.

  The region has 25 grid points. Point `t` stages rows `2000 t … 2000 t + 1999` of `x` and the whole of `W1`, and writes
  back rows `2000 t … 2000 t + 1999` of the result. The body rounds both blocks to a narrower format — the identity on
  the extended reals — and multiplies them into a zero accumulator, so entry `(p, q)` of what it stores is
  `∑ k, x (2000 t + p, k) · W1 (k, q)`: row `2000 t + p` of the whole product. The 25 blocks of 2000 rows tile the
  50000 rows (row `r` lies in the block of point `r / 2000`), so after the region the result array is the whole
  product.
-/
import proofs.«152942_j82660940579212_1_alg».proof.Proof.Gen.KernelIdeal.Frame
import proofs.«152942_j82660940579212_1_alg».proof.Proof.Spec
import proofs.«152942_j82660940579212_1_alg».proof.Proof.LibMatmulNN
import Idealize.ShloMosaic.Lib.Pipeline.Value
import Idealize.ShloMosaic.Lib.ValueIdx

set_option maxRecDepth 16384

noncomputable section

open scoped BigOperators

namespace Cert.KernelIdeal.Reg0

open Cert.KernelIdeal Cert.KernelIdeal.Gen Cert.KernelIdeal.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's stored value at entry `(p, q)`: the row of the left block against the column of the right one. -/
theorem stored_apply (x0 : Vec Ideal S2000x128 .f32) (x1 : Vec Ideal S128x64 .f32) (p : Fin 2000) (q : Fin 64) :
    k0_pay1 (F := Ideal) x0 x1 (ix2 p q) = ∑ k : Fin 128, x0 (ix2 p k) * x1 (ix2 k q) := by
  unfold k0_pay1
  exact (Cert.LibMatmulNN.matmul_zero_apply' dot_S2000x128_S128x64_S2000x64_1_0_0_1_n_n rfl rfl rfl rfl rfl rfl none _ _ p q).trans
    (Finset.sum_congr rfl fun k _ => rfl)

/-- The index maps over the grid: the row blocks of `x` and of the result move with the point, `W1` stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (prod1 (V c main_arg0) (V c main_arg4)) := by
  show (cfg0.win 2).cut (grid0.coords t) ((dat0 V c).after 2 t) = _
  rw [after0_2]
  unfold out0_2
  rw [View.canon_unit_zero off_zero]
  simp only [View.ld_unit_zero (S := S2000x128) off_zero, View.ld_unit_zero (S := S128x64) off_zero]
  obtain ⟨e0, e1, e2, e3, e4, e5⟩ := idx_facts t
  funext j
  obtain ⟨p, q, rfl⟩ : ∃ (p : Fin 2000) (q : Fin 64), j = ix2 p q := ⟨j 0, j 1, eq_ix2 j⟩
  show k0_pay1 (iblk0 V c 0 t) (iblk0 V c 1 t) (ix2 p q)
    = prod1 (V c main_arg0) (V c main_arg4) (((cfg0.win 2).blk t).view.emb (ix2 p q))
  refine (stored_apply (iblk0 V c 0 t) (iblk0 V c 1 t) p q).trans ?_
  unfold prod1
  refine Finset.sum_congr rfl fun k _ => ?_
  have hl : iblk0 V c 0 t (ix2 p k) = V c main_arg0 (ix2 (n0 := 50000) ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 2000 + 1 * p.val = win0_2.index t (0 : Fin 2) * 2000 + 1 * p.val
      omega
    | ⟨1, _⟩ =>
      show win0_0.index t (1 : Fin 2) * 128 + 1 * k.val = k.val
      omega
  have hr : iblk0 V c 1 t (ix2 k q) = V c main_arg4 (ix2 (n1 := 64) k ((((cfg0.win 2).blk t).view.emb (ix2 p q)) 1)) := by
    show V c main_arg4 (((cfg0.win 1).blk t).view.emb (ix2 k q)) = _
    refine congrArg (V c main_arg4) (funext fun a => Fin.ext ?_)
    match a with
    | ⟨0, _⟩ =>
      show win0_1.index t (0 : Fin 2) * 128 + 1 * k.val = k.val
      omega
    | ⟨1, _⟩ =>
      show win0_1.index t (1 : Fin 2) * 64 + 1 * q.val = win0_2.index t (1 : Fin 2) * 64 + 1 * q.val
      omega
  rw [hl, hr]

/-- An index of the result array lies in point `t`'s block iff each coordinate lies in the block's range. -/
theorem mem_blk (t : Fin cfg0.N) (i : S50000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v0).slice (win0_2.rect t)).set ↔ _
  rw [View.set_slice_whole, Rect.mem_set_unit]
  exact Iff.rfl

/-- Every row of the result lies in the block of the point `row / 2000`. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 25 := N_0
  have ht : (i 0).val / 2000 < grid0.N := by rw [hN]; omega
  refine ⟨⟨(i 0).val / 2000, ht⟩, flush0_2 _, ?_⟩
  rw [mem_blk]
  obtain ⟨e0, e1, e2, e3, e4, e5⟩ := idx_facts ⟨(i 0).val / 2000, ht⟩
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000
    omega
  | ⟨1, _⟩ =>
    show win0_2.index ⟨(i 0).val / 2000, ht⟩ (1 : Fin 2) * 64 ≤ (i 1).val
      ∧ (i 1).val < win0_2.index ⟨(i 0).val / 2000, ht⟩ (1 : Fin 2) * 64 + 64
    rw [e5]; omega

/-- After the region the result array is the whole product of the two arrays the region found. -/
theorem final (c : Dev nD) :
    (dat0 V c).arrAt 2 cfg0.N = prod1 (V c main_arg0) (V c main_arg4) :=
  (dat0 V c).arrAt_eq_of_cover 2 (prod1 (V c main_arg0) (V c main_arg4)) (fun t _ => flushed_eq V c t) cover

end Cert.KernelIdeal.Reg0

end
-- ==== Proof.Reg1.lean ====
/-
  The second region: the bias row added to the aggregated rows, then the maximum with zero, 2000 rows at a time.

  The region has 25 grid points. Point `t` stages rows `2000 t … 2000 t + 1999` of the aggregated array and the whole
  bias row, and writes back the same rows of the result. The body adds the bias row to every row of the block and takes the maximum with a splat zero, so entry `(p, q)` of what it stores is `max (a (2000 t + p, q) + b (0, q)) 0`. The 25 blocks of 2000 rows tile the 50000 rows (row `r`
  lies in the block of point `r / 2000`), so after the region the result array is that function of the two arrays
  the region found, at every index.
-/
import proofs.«152942_j82660940579212_1_alg».proof.Proof.Gen.KernelIdeal.Frame
import proofs.«152942_j82660940579212_1_alg».proof.Proof.Spec
import Idealize.ShloMosaic.Lib.Pipeline.Value
import Idealize.ShloMosaic.Lib.ValueIdx

set_option maxRecDepth 16384

noncomputable section

namespace Cert.KernelIdeal.Reg1

open Cert.KernelIdeal Cert.KernelIdeal.Gen Cert.KernelIdeal.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's stored value at entry `(p, q)`: the block's entry plus the bias row's entry in column `q`, against zero. -/
theorem stored_apply (x0 : Vec Ideal S2000x64 .f32) (x1 : Vec Ideal S1x64 .f32) (p : Fin 2000) (q : Fin 64) :
    k1_pay1 (F := Ideal) x0 x1 (ix2 p q) = max (x0 (ix2 p q) + x1 (ix2 (n0 := 1) 0 q)) (Ideal.ofBits .f32 0x00000000#32) := by
  have h1 : shapeCast S2000x64 x0 shapeCasts_S2000x64_S2000x64 = x0 := shapeCast_self _ _
  have h2 : shapeCast S1x64 x1 shapeCasts_S1x64_S1x64 = x1 := shapeCast_self _ _
  have h3 : broadcastTo S2000x64 x1 broadcasts_S1x64_S2000x64 (ix2 p q) = x1 (ix2 (n0 := 1) 0 q) :=
    broadcastTo_apply x1 broadcasts_S1x64_S2000x64 (ix2 p q) (ix2 (n0 := 1) 0 q)
      (fun a => by match a with | ⟨0, _⟩ => rfl | ⟨1, _⟩ => rfl)
  unfold k1_pay1
  rw [h1, h2]
  show max (x0 (ix2 p q) + broadcastTo S2000x64 x1 broadcasts_S1x64_S2000x64 (ix2 p q)) _ = _
  rw [h3]
  rfl

/-- The index maps over the grid: the row blocks of the input and of the result move with the point, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function. -/
theorem flushed_eq (c : Dev nD) (t : Fin cfg1.N) :
    (dat1 V c).flushed 2 t = ((cfg1.win 2).blk t).view.read (Elt Ideal) (rowBiasRelu (V c main_v13) (V c main_v14)) := by
  show (cfg1.win 2).cut (grid1.coords t) ((dat1 V c).after 2 t) = _
  rw [after1_2]
  unfold out1_2
  rw [View.canon_unit_zero off_zero]
  simp only [View.ld_unit_zero (S := S2000x64) off_zero, View.ld_unit_zero (S := S1x64) off_zero]
  obtain ⟨e0, e1, e2, e3, e4, e5⟩ := idx_facts t
  funext j
  obtain ⟨p, q, rfl⟩ : ∃ (p : Fin 2000) (q : Fin 64), j = ix2 p q := ⟨j 0, j 1, eq_ix2 j⟩
  show k1_pay1 (iblk1 V c 0 t) (iblk1 V c 1 t) (ix2 p q)
    = rowBiasRelu (V c main_v13) (V c main_v14) (((cfg1.win 2).blk t).view.emb (ix2 p q))
  refine (stored_apply (iblk1 V c 0 t) (iblk1 V c 1 t) p q).trans ?_
  unfold rowBiasRelu
  have hl : iblk1 V c 0 t (ix2 p q) = V c main_v13 (((cfg1.win 2).blk t).view.emb (ix2 p q)) := by
    show V c main_v13 (((cfg1.win 0).blk t).view.emb (ix2 p q)) = _
    refine congrArg (V c main_v13) (funext fun a => Fin.ext ?_)
    match a with
    | ⟨0, _⟩ =>
      show win1_0.index t (0 : Fin 2) * 2000 + 1 * p.val = win1_2.index t (0 : Fin 2) * 2000 + 1 * p.val
      omega
    | ⟨1, _⟩ =>
      show win1_0.index t (1 : Fin 2) * 64 + 1 * q.val = win1_2.index t (1 : Fin 2) * 64 + 1 * q.val
      omega
  have hr : iblk1 V c 1 t (ix2 (n0 := 1) 0 q)
      = V c main_v14 (ix2 (n0 := 1) 0 ((((cfg1.win 2).blk t).view.emb (ix2 p q)) 1)) := by
    show V c main_v14 (((cfg1.win 1).blk t).view.emb (ix2 (n0 := 1) 0 q)) = _
    refine congrArg (V c main_v14) (funext fun a => Fin.ext ?_)
    match a with
    | ⟨0, _⟩ =>
      show win1_1.index t (0 : Fin 2) * 1 + 1 * 0 = 0
      omega
    | ⟨1, _⟩ =>
      show win1_1.index t (1 : Fin 2) * 64 + 1 * q.val = win1_2.index t (1 : Fin 2) * 64 + 1 * q.val
      omega
  rw [hl, hr]

/-- An index of the result array lies in point `t`'s block iff each coordinate lies in the block's range. -/
theorem mem_blk (t : Fin cfg1.N) (i : S50000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v15).slice (win1_2.rect t)).set ↔ _
  rw [View.set_slice_whole, Rect.mem_set_unit]
  exact Iff.rfl

/-- Every row of the result lies in the block of the point `row / 2000`. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 25 := N_1
  have ht : (i 0).val / 2000 < grid1.N := by rw [hN]; omega
  refine ⟨⟨(i 0).val / 2000, ht⟩, flush1_2 _, ?_⟩
  rw [mem_blk]
  obtain ⟨e0, e1, e2, e3, e4, e5⟩ := idx_facts ⟨(i 0).val / 2000, ht⟩
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]; show (i 0).val / 2000 * 2000 ≤ (i 0).val ∧ (i 0).val < (i 0).val / 2000 * 2000 + 2000
    omega
  | ⟨1, _⟩ =>
    show win1_2.index ⟨(i 0).val / 2000, ht⟩ (1 : Fin 2) * 64 ≤ (i 1).val
      ∧ (i 1).val < win1_2.index ⟨(i 0).val / 2000, ht⟩ (1 : Fin 2) * 64 + 64
    rw [e5]; omega

/-- After the region the result array is the whole-array function of the two arrays the region found. -/
theorem final (c : Dev nD) :
    (dat1 V c).arrAt 2 cfg1.N = rowBiasRelu (V c main_v13) (V c main_v14) :=
  (dat1 V c).arrAt_eq_of_cover 2 (rowBiasRelu (V c main_v13) (V c main_v14)) (fun t _ => flushed_eq V c t) cover

end Cert.KernelIdeal.Reg1

end
-- ==== Proof.Reg2.lean ====
/-
  The third region: the product `h · W2`, 2000 rows at a time.

  The region has 25 grid points. Point `t` stages rows `2000 t … 2000 t + 1999` of `h` and the whole of `W2`, and writes
  back rows `2000 t … 2000 t + 1999` of the result. The body rounds both blocks to a narrower format — the identity on
  the extended reals — and multiplies them into a zero accumulator, so entry `(p, q)` of what it stores is
  `∑ k, h (2000 t + p, k) · W2 (k, q)`: row `2000 t + p` of the whole product. The 25 blocks of 2000 rows tile the
  50000 rows (row `r` lies in the block of point `r / 2000`), so after the region the result array is the whole
  product.
-/
import proofs.«152942_j82660940579212_1_alg».proof.Proof.Gen.KernelIdeal.Frame
import proofs.«152942_j82660940579212_1_alg».proof.Proof.Spec
import proofs.«152942_j82660940579212_1_alg».proof.Proof.LibMatmulNN
import Idealize.ShloMosaic.Lib.Pipeline.Value
import Idealize.ShloMosaic.Lib.ValueIdx

set_option maxRecDepth 16384

noncomputable section

open scoped BigOperators

namespace Cert.KernelIdeal.Reg2

open Cert.KernelIdeal Cert.KernelIdeal.Gen Cert.KernelIdeal.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's stored value at entry `(p, q)`: the row of the left block against the column of the right one. -/
theorem stored_apply (x0 : Vec Ideal S2000x64 .f32) (x1 : Vec Ideal S64x64 .f32) (p : Fin 2000) (q : Fin 64) :
    k2_pay1 (F := Ideal) x0 x1 (ix2 p q) = ∑ k : Fin 64, x0 (ix2 p k) * x1 (ix2 k q) := by
  have h1 : shapeCast S2000x64 x0 shapeCasts_S2000x64_S2000x64 = x0 := shapeCast_self _ _
  unfold k2_pay1
  rw [h1]
  exact (Cert.LibMatmulNN.matmul_zero_apply' dot_S2000x64_S64x64_S2000x64_1_0_0_1_n_n rfl rfl rfl rfl rfl rfl none _ _ p q).trans
    (Finset.sum_congr rfl fun k _ => rfl)

/-- The index maps over the grid: the row blocks of `h` and of the result move with the point, `W2` stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed_eq (c : Dev nD) (t : Fin cfg2.N) :
    (dat2 V c).flushed 2 t = ((cfg2.win 2).blk t).view.read (Elt Ideal) (prod2 (V c main_v15) (V c main_arg6)) := by
  show (cfg2.win 2).cut (grid2.coords t) ((dat2 V c).after 2 t) = _
  rw [after2_2]
  unfold out2_2
  rw [View.canon_unit_zero off_zero]
  simp only [View.ld_unit_zero (S := S2000x64) off_zero, View.ld_unit_zero (S := S64x64) off_zero]
  obtain ⟨e0, e1, e2, e3, e4, e5⟩ := idx_facts t
  funext j
  obtain ⟨p, q, rfl⟩ : ∃ (p : Fin 2000) (q : Fin 64), j = ix2 p q := ⟨j 0, j 1, eq_ix2 j⟩
  show k2_pay1 (iblk2 V c 0 t) (iblk2 V c 1 t) (ix2 p q)
    = prod2 (V c main_v15) (V c main_arg6) (((cfg2.win 2).blk t).view.emb (ix2 p q))
  refine (stored_apply (iblk2 V c 0 t) (iblk2 V c 1 t) p q).trans ?_
  unfold prod2
  refine Finset.sum_congr rfl fun k _ => ?_
  have hl : iblk2 V c 0 t (ix2 p k) = V c main_v15 (ix2 (n0 := 50000) ((((cfg2.win 2).blk t).view.emb (ix2 p q)) 0) k) := by
    show V c main_v15 (((cfg2.win 0).blk t).view.emb (ix2 p k)) = _
    refine congrArg (V c main_v15) (funext fun a => Fin.ext ?_)
    match a with
    | ⟨0, _⟩ =>
      show win2_0.index t (0 : Fin 2) * 2000 + 1 * p.val = win2_2.index t (0 : Fin 2) * 2000 + 1 * p.val
      omega
    | ⟨1, _⟩ =>
      show win2_0.index t (1 : Fin 2) * 64 + 1 * k.val = k.val
      omega
  have hr : iblk2 V c 1 t (ix2 k q) = V c main_arg6 (ix2 (n1 := 64) k ((((cfg2.win 2).blk t).view.emb (ix2 p q)) 1)) := by
    show V c main_arg6 (((cfg2.win 1).blk t).view.emb (ix2 k q)) = _
    refine congrArg (V c main_arg6) (funext fun a => Fin.ext ?_)
    match a with
    | ⟨0, _⟩ =>
      show win2_1.index t (0 : Fin 2) * 64 + 1 * k.val = k.val
      omega
    | ⟨1, _⟩ =>
      show win2_1.index t (1 : Fin 2) * 64 + 1 * q.val = win2_2.index t (1 : Fin 2) * 64 + 1 * q.val
      omega
  rw [hl, hr]

/-- An index of the result array lies in point `t`'s block iff each coordinate lies in the block's range. -/
theorem mem_blk (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v16).slice (win2_2.rect t)).set ↔ _
  rw [View.set_slice_whole, Rect.mem_set_unit]
  exact Iff.rfl

/-- Every row of the result lies in the block of the point `row / 2000`. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : grid2.N = 25 := N_2
  have ht : (i 0).val / 2000 < grid2.N := by rw [hN]; omega
  refine ⟨⟨(i 0).val / 2000, ht⟩, flush2_2 _, ?_⟩
  rw [mem_blk]
  obtain ⟨e0, e1, e2, e3, e4, e5⟩ := idx_facts ⟨(i 0).val / 2000, ht⟩
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]; show (i 0).val / 2000 * 2000 ≤ (i 0).val ∧ (i 0).val < (i 0).val / 2000 * 2000 + 2000
    omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    rw [e5]; omega

/-- After the region the result array is the whole product of the two arrays the region found. -/
theorem final (c : Dev nD) :
    (dat2 V c).arrAt 2 cfg2.N = prod2 (V c main_v15) (V c main_arg6) :=
  (dat2 V c).arrAt_eq_of_cover 2 (prod2 (V c main_v15) (V c main_arg6)) (fun t _ => flushed_eq V c t) cover

end Cert.KernelIdeal.Reg2

end
-- ==== Proof.Reg3.lean ====
/-
  The fourth region: the bias row added to the aggregated rows, 2000 rows at a time.

  The region has 25 grid points. Point `t` stages rows `2000 t … 2000 t + 1999` of the aggregated array and the whole
  bias row, and writes back the same rows of the result. The body adds the bias row to every row of the block, so entry `(p, q)` of what it stores is `a (2000 t + p, q) + b (0, q)`. The 25 blocks of 2000 rows tile the 50000 rows (row `r`
  lies in the block of point `r / 2000`), so after the region the result array is that function of the two arrays
  the region found, at every index.
-/
import proofs.«152942_j82660940579212_1_alg».proof.Proof.Gen.KernelIdeal.Frame
import proofs.«152942_j82660940579212_1_alg».proof.Proof.Spec
import Idealize.ShloMosaic.Lib.Pipeline.Value
import Idealize.ShloMosaic.Lib.ValueIdx

set_option maxRecDepth 16384

noncomputable section

namespace Cert.KernelIdeal.Reg3

open Cert.KernelIdeal Cert.KernelIdeal.Gen Cert.KernelIdeal.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The body's stored value at entry `(p, q)`: the block's entry plus the bias row's entry in column `q`. -/
theorem stored_apply (x0 : Vec Ideal S2000x64 .f32) (x1 : Vec Ideal S1x64 .f32) (p : Fin 2000) (q : Fin 64) :
    k3_pay1 (F := Ideal) x0 x1 (ix2 p q) = x0 (ix2 p q) + x1 (ix2 (n0 := 1) 0 q) := by
  have h1 : shapeCast S2000x64 x0 shapeCasts_S2000x64_S2000x64 = x0 := shapeCast_self _ _
  have h2 : shapeCast S1x64 x1 shapeCasts_S1x64_S1x64 = x1 := shapeCast_self _ _
  have h3 : broadcastTo S2000x64 x1 broadcasts_S1x64_S2000x64 (ix2 p q) = x1 (ix2 (n0 := 1) 0 q) :=
    broadcastTo_apply x1 broadcasts_S1x64_S2000x64 (ix2 p q) (ix2 (n0 := 1) 0 q)
      (fun a => by match a with | ⟨0, _⟩ => rfl | ⟨1, _⟩ => rfl)
  unfold k3_pay1
  rw [h1, h2]
  show x0 (ix2 p q) + broadcastTo S2000x64 x1 broadcasts_S1x64_S2000x64 (ix2 p q) = _
  rw [h3]

/-- The index maps over the grid: the row blocks of the input and of the result move with the point, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function. -/
theorem flushed_eq (c : Dev nD) (t : Fin cfg3.N) :
    (dat3 V c).flushed 2 t = ((cfg3.win 2).blk t).view.read (Elt Ideal) (rowBias (V c main_v29) (V c main_v30)) := by
  show (cfg3.win 2).cut (grid3.coords t) ((dat3 V c).after 2 t) = _
  rw [after3_2]
  unfold out3_2
  rw [View.canon_unit_zero off_zero]
  simp only [View.ld_unit_zero (S := S2000x64) off_zero, View.ld_unit_zero (S := S1x64) off_zero]
  obtain ⟨e0, e1, e2, e3, e4, e5⟩ := idx_facts t
  funext j
  obtain ⟨p, q, rfl⟩ : ∃ (p : Fin 2000) (q : Fin 64), j = ix2 p q := ⟨j 0, j 1, eq_ix2 j⟩
  show k3_pay1 (iblk3 V c 0 t) (iblk3 V c 1 t) (ix2 p q)
    = rowBias (V c main_v29) (V c main_v30) (((cfg3.win 2).blk t).view.emb (ix2 p q))
  refine (stored_apply (iblk3 V c 0 t) (iblk3 V c 1 t) p q).trans ?_
  unfold rowBias
  have hl : iblk3 V c 0 t (ix2 p q) = V c main_v29 (((cfg3.win 2).blk t).view.emb (ix2 p q)) := by
    show V c main_v29 (((cfg3.win 0).blk t).view.emb (ix2 p q)) = _
    refine congrArg (V c main_v29) (funext fun a => Fin.ext ?_)
    match a with
    | ⟨0, _⟩ =>
      show win3_0.index t (0 : Fin 2) * 2000 + 1 * p.val = win3_2.index t (0 : Fin 2) * 2000 + 1 * p.val
      omega
    | ⟨1, _⟩ =>
      show win3_0.index t (1 : Fin 2) * 64 + 1 * q.val = win3_2.index t (1 : Fin 2) * 64 + 1 * q.val
      omega
  have hr : iblk3 V c 1 t (ix2 (n0 := 1) 0 q)
      = V c main_v30 (ix2 (n0 := 1) 0 ((((cfg3.win 2).blk t).view.emb (ix2 p q)) 1)) := by
    show V c main_v30 (((cfg3.win 1).blk t).view.emb (ix2 (n0 := 1) 0 q)) = _
    refine congrArg (V c main_v30) (funext fun a => Fin.ext ?_)
    match a with
    | ⟨0, _⟩ =>
      show win3_1.index t (0 : Fin 2) * 1 + 1 * 0 = 0
      omega
    | ⟨1, _⟩ =>
      show win3_1.index t (1 : Fin 2) * 64 + 1 * q.val = win3_2.index t (1 : Fin 2) * 64 + 1 * q.val
      omega
  rw [hl, hr]

/-- An index of the result array lies in point `t`'s block iff each coordinate lies in the block's range. -/
theorem mem_blk (t : Fin cfg3.N) (i : S50000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v31).slice (win3_2.rect t)).set ↔ _
  rw [View.set_slice_whole, Rect.mem_set_unit]
  exact Iff.rfl

/-- Every row of the result lies in the block of the point `row / 2000`. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 25 := N_3
  have ht : (i 0).val / 2000 < grid3.N := by rw [hN]; omega
  refine ⟨⟨(i 0).val / 2000, ht⟩, flush3_2 _, ?_⟩
  rw [mem_blk]
  obtain ⟨e0, e1, e2, e3, e4, e5⟩ := idx_facts ⟨(i 0).val / 2000, ht⟩
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    rw [e4]; show (i 0).val / 2000 * 2000 ≤ (i 0).val ∧ (i 0).val < (i 0).val / 2000 * 2000 + 2000
    omega
  | ⟨1, _⟩ =>
    show win3_2.index ⟨(i 0).val / 2000, ht⟩ (1 : Fin 2) * 64 ≤ (i 1).val
      ∧ (i 1).val < win3_2.index ⟨(i 0).val / 2000, ht⟩ (1 : Fin 2) * 64 + 64
    rw [e5]; omega

/-- After the region the result array is the whole-array function of the two arrays the region found. -/
theorem final (c : Dev nD) :
    (dat3 V c).arrAt 2 cfg3.N = rowBias (V c main_v29) (V c main_v30) :=
  (dat3 V c).arrAt_eq_of_cover 2 (rowBias (V c main_v29) (V c main_v30)) (fun t _ => flushed_eq V c t) cover

end Cert.KernelIdeal.Reg3

end
-- ==== Proof.HostStretch.lean ====
/-
  The two stretches of host operations between the regions, read at the buffers the regions use.

  Each stretch is the sparse aggregation of a 50000×64 array along the edges — the column indices normalised, the
  rows gathered, scaled by the edge weights and summed into their target rows — followed by a bias vector laid out as
  one row. From any contents `W` of the buffers, after the first stretch the aggregate's buffer holds `aggregate` of
  the edge arrays and the first product's buffer as `W` has them, and the row's buffer holds the first bias as a row;
  the argument arrays the later segments read are untouched. The second stretch is the same over the second
  product's buffer and the second bias.
-/
import proofs.«152942_j82660940579212_1_alg».proof.Proof.Gen.KernelIdeal.Launch
import proofs.«152942_j82660940579212_1_alg».proof.Proof.Spec
import Idealize.ShloMosaic.Lib.StableHlo.Run

set_option maxRecDepth 16384

noncomputable section

namespace Cert.KernelIdeal.HostStretch

open Cert.KernelIdeal Cert.KernelIdeal.Gen Cert.KernelIdeal.Spec
open Idealize.ShloMosaic Idealize.ShloMosaic.TcCoe Idealize.SL.Sem Idealize.ShloMosaic.StableHlo

variable (W : Valuation τ sig (Elt Ideal))

/-- After the first stretch the aggregate's buffer holds the aggregation of the first product's rows. -/
theorem first_aggregate : StableHlo.after (hostOps1 (F := Ideal)) W (Proc.devRef .tc main_v13)
    = aggregate (W (Proc.devRef .tc main_arg1)) (W (Proc.devRef .tc main_arg2)) (W (Proc.devRef .tc main_arg3))
        (W (Proc.devRef .tc main_v0)) := by
  after_results_simp <;> rfl

/-- After the first stretch the row's buffer holds the first bias as one row. -/
theorem first_row : StableHlo.after (hostOps1 (F := Ideal)) W (Proc.devRef .tc main_v14)
    = asRow (W (Proc.devRef .tc main_arg5)) := by
  after_results_simp <;> rfl

theorem first_keeps_arg1 : StableHlo.after (hostOps1 (F := Ideal)) W (Proc.devRef .tc main_arg1) = W (Proc.devRef .tc main_arg1) := by
  after_results_simp <;> rfl
theorem first_keeps_arg2 : StableHlo.after (hostOps1 (F := Ideal)) W (Proc.devRef .tc main_arg2) = W (Proc.devRef .tc main_arg2) := by
  after_results_simp <;> rfl
theorem first_keeps_arg3 : StableHlo.after (hostOps1 (F := Ideal)) W (Proc.devRef .tc main_arg3) = W (Proc.devRef .tc main_arg3) := by
  after_results_simp <;> rfl
theorem first_keeps_arg6 : StableHlo.after (hostOps1 (F := Ideal)) W (Proc.devRef .tc main_arg6) = W (Proc.devRef .tc main_arg6) := by
  after_results_simp <;> rfl
theorem first_keeps_arg7 : StableHlo.after (hostOps1 (F := Ideal)) W (Proc.devRef .tc main_arg7) = W (Proc.devRef .tc main_arg7) := by
  after_results_simp <;> rfl

/-- After the second stretch the aggregate's buffer holds the aggregation of the second product's rows. -/
theorem second_aggregate : StableHlo.after (hostOps3 (F := Ideal)) W (Proc.devRef .tc main_v29)
    = aggregate (W (Proc.devRef .tc main_arg1)) (W (Proc.devRef .tc main_arg2)) (W (Proc.devRef .tc main_arg3))
        (W (Proc.devRef .tc main_v16)) := by
  after_results_simp <;> rfl

/-- After the second stretch the row's buffer holds the second bias as one row. -/
theorem second_row : StableHlo.after (hostOps3 (F := Ideal)) W (Proc.devRef .tc main_v30)
    = asRow (W (Proc.devRef .tc main_arg7)) := by
  after_results_simp <;> rfl

end Cert.KernelIdeal.HostStretch

end
-- ==== Proof.KValue.lean ====
/-
  The result array after the run, as one function of the argument arrays.

  The run's buffer contents are followed from the launch to the last boundary, at the buffers the next segment
  reads. The first region leaves the product `x · W1`; the first host stretch its aggregation along the edges and the
  first bias as a row; the second region the biased, clamped rows `h`; the third region the product `h · W2`; the
  second host stretch its aggregation and the second bias as a row; the fourth region the biased rows. No segment
  writes an argument array, so each is read at every boundary as launched. Composed, the result array holds
  `layers` of the arguments.
-/
import proofs.«152942_j82660940579212_1_alg».proof.Proof.Gen.KernelIdeal.Frame
import proofs.«152942_j82660940579212_1_alg».proof.Proof.Spec
import proofs.«152942_j82660940579212_1_alg».proof.Proof.Reg0
import proofs.«152942_j82660940579212_1_alg».proof.Proof.Reg1
import proofs.«152942_j82660940579212_1_alg».proof.Proof.Reg2
import proofs.«152942_j82660940579212_1_alg».proof.Proof.Reg3
import proofs.«152942_j82660940579212_1_alg».proof.Proof.HostStretch

set_option maxRecDepth 16384

noncomputable section

namespace Cert.KernelIdeal.Whole

open Cert.KernelIdeal Cert.KernelIdeal.Gen Cert.KernelIdeal.Spec
open Idealize.ShloMosaic Idealize.ShloMosaic.TcCoe Idealize.SL.Sem

variable (m : (ℓ : Loc nD τ sig) → Buf (Elt Ideal) ℓ) (ρ : Dev nD → PrngReg)

/-! ## The argument arrays at each boundary -/

theorem at1_arg1 (c : Dev nD) : W1 m ρ c (Proc.devRef .tc main_arg1) = m ((c : Thread nD τ).loc main_arg1) :=
  (W1_of_ne m ρ c main_arg1 (by decide)).trans rfl
theorem at1_arg2 (c : Dev nD) : W1 m ρ c (Proc.devRef .tc main_arg2) = m ((c : Thread nD τ).loc main_arg2) :=
  (W1_of_ne m ρ c main_arg2 (by decide)).trans rfl
theorem at1_arg3 (c : Dev nD) : W1 m ρ c (Proc.devRef .tc main_arg3) = m ((c : Thread nD τ).loc main_arg3) :=
  (W1_of_ne m ρ c main_arg3 (by decide)).trans rfl
theorem at1_arg5 (c : Dev nD) : W1 m ρ c (Proc.devRef .tc main_arg5) = m ((c : Thread nD τ).loc main_arg5) :=
  (W1_of_ne m ρ c main_arg5 (by decide)).trans rfl
theorem at1_arg6 (c : Dev nD) : W1 m ρ c (Proc.devRef .tc main_arg6) = m ((c : Thread nD τ).loc main_arg6) :=
  (W1_of_ne m ρ c main_arg6 (by decide)).trans rfl
theorem at1_arg7 (c : Dev nD) : W1 m ρ c (Proc.devRef .tc main_arg7) = m ((c : Thread nD τ).loc main_arg7) :=
  (W1_of_ne m ρ c main_arg7 (by decide)).trans rfl

theorem at2_arg1 (c : Dev nD) : W2 m ρ c (Proc.devRef .tc main_arg1) = m ((c : Thread nD τ).loc main_arg1) :=
  (HostStretch.first_keeps_arg1 (W1 m ρ c)).trans (at1_arg1 m ρ c)
theorem at2_arg2 (c : Dev nD) : W2 m ρ c (Proc.devRef .tc main_arg2) = m ((c : Thread nD τ).loc main_arg2) :=
  (HostStretch.first_keeps_arg2 (W1 m ρ c)).trans (at1_arg2 m ρ c)
theorem at2_arg3 (c : Dev nD) : W2 m ρ c (Proc.devRef .tc main_arg3) = m ((c : Thread nD τ).loc main_arg3) :=
  (HostStretch.first_keeps_arg3 (W1 m ρ c)).trans (at1_arg3 m ρ c)
theorem at2_arg6 (c : Dev nD) : W2 m ρ c (Proc.devRef .tc main_arg6) = m ((c : Thread nD τ).loc main_arg6) :=
  (HostStretch.first_keeps_arg6 (W1 m ρ c)).trans (at1_arg6 m ρ c)
theorem at2_arg7 (c : Dev nD) : W2 m ρ c (Proc.devRef .tc main_arg7) = m ((c : Thread nD τ).loc main_arg7) :=
  (HostStretch.first_keeps_arg7 (W1 m ρ c)).trans (at1_arg7 m ρ c)

theorem at3_arg1 (c : Dev nD) : W3 m ρ c (Proc.devRef .tc main_arg1) = m ((c : Thread nD τ).loc main_arg1) :=
  (W3_of_ne m ρ c main_arg1 (by decide)).trans (at2_arg1 m ρ c)
theorem at3_arg2 (c : Dev nD) : W3 m ρ c (Proc.devRef .tc main_arg2) = m ((c : Thread nD τ).loc main_arg2) :=
  (W3_of_ne m ρ c main_arg2 (by decide)).trans (at2_arg2 m ρ c)
theorem at3_arg3 (c : Dev nD) : W3 m ρ c (Proc.devRef .tc main_arg3) = m ((c : Thread nD τ).loc main_arg3) :=
  (W3_of_ne m ρ c main_arg3 (by decide)).trans (at2_arg3 m ρ c)
theorem at3_arg6 (c : Dev nD) : W3 m ρ c (Proc.devRef .tc main_arg6) = m ((c : Thread nD τ).loc main_arg6) :=
  (W3_of_ne m ρ c main_arg6 (by decide)).trans (at2_arg6 m ρ c)
theorem at3_arg7 (c : Dev nD) : W3 m ρ c (Proc.devRef .tc main_arg7) = m ((c : Thread nD τ).loc main_arg7) :=
  (W3_of_ne m ρ c main_arg7 (by decide)).trans (at2_arg7 m ρ c)

theorem at4_arg1 (c : Dev nD) : W4 m ρ c (Proc.devRef .tc main_arg1) = m ((c : Thread nD τ).loc main_arg1) :=
  (W4_of_ne m ρ c main_arg1 (by decide)).trans (at3_arg1 m ρ c)
theorem at4_arg2 (c : Dev nD) : W4 m ρ c (Proc.devRef .tc main_arg2) = m ((c : Thread nD τ).loc main_arg2) :=
  (W4_of_ne m ρ c main_arg2 (by decide)).trans (at3_arg2 m ρ c)
theorem at4_arg3 (c : Dev nD) : W4 m ρ c (Proc.devRef .tc main_arg3) = m ((c : Thread nD τ).loc main_arg3) :=
  (W4_of_ne m ρ c main_arg3 (by decide)).trans (at3_arg3 m ρ c)
theorem at4_arg7 (c : Dev nD) : W4 m ρ c (Proc.devRef .tc main_arg7) = m ((c : Thread nD τ).loc main_arg7) :=
  (W4_of_ne m ρ c main_arg7 (by decide)).trans (at3_arg7 m ρ c)

/-! ## The computed arrays at each boundary -/

/-- After the first region: the first product. -/
theorem at1_prod (c : Dev nD) : W1 m ρ c (Proc.devRef .tc main_v0) = prod1 (m ((c : Thread nD τ).loc main_arg0)) (m ((c : Thread nD τ).loc main_arg4)) :=
  (W1_arr m ρ c 2).trans (Reg0.final (V0 m ρ) c)

/-- After the first host stretch: its aggregation along the edges … -/
theorem at2_agg (c : Dev nD) : W2 m ρ c (Proc.devRef .tc main_v13) = aggregate (m ((c : Thread nD τ).loc main_arg1)) (m ((c : Thread nD τ).loc main_arg2)) (m ((c : Thread nD τ).loc main_arg3)) (prod1 (m ((c : Thread nD τ).loc main_arg0)) (m ((c : Thread nD τ).loc main_arg4))) :=
  (HostStretch.first_aggregate (W1 m ρ c)).trans (by
    rw [at1_arg1 m ρ c, at1_arg2 m ρ c, at1_arg3 m ρ c, at1_prod m ρ c])

/-- … and the first bias as a row. -/
theorem at2_row (c : Dev nD) : W2 m ρ c (Proc.devRef .tc main_v14) = asRow (m ((c : Thread nD τ).loc main_arg5)) :=
  (HostStretch.first_row (W1 m ρ c)).trans (by rw [at1_arg5 m ρ c])

/-- After the second region: the first layer's output. -/
theorem at3_hidden (c : Dev nD) : W3 m ρ c (Proc.devRef .tc main_v15) = rowBiasRelu (aggregate (m ((c : Thread nD τ).loc main_arg1)) (m ((c : Thread nD τ).loc main_arg2)) (m ((c : Thread nD τ).loc main_arg3)) (prod1 (m ((c : Thread nD τ).loc main_arg0)) (m ((c : Thread nD τ).loc main_arg4)))) (asRow (m ((c : Thread nD τ).loc main_arg5))) :=
  (W3_arr m ρ c 2).trans ((Reg1.final (V2 m ρ) c).trans (congrArg₂ rowBiasRelu (at2_agg m ρ c) (at2_row m ρ c)))

/-- After the third region: the second product. -/
theorem at4_prod (c : Dev nD) : W4 m ρ c (Proc.devRef .tc main_v16) = prod2 (rowBiasRelu (aggregate (m ((c : Thread nD τ).loc main_arg1)) (m ((c : Thread nD τ).loc main_arg2)) (m ((c : Thread nD τ).loc main_arg3)) (prod1 (m ((c : Thread nD τ).loc main_arg0)) (m ((c : Thread nD τ).loc main_arg4)))) (asRow (m ((c : Thread nD τ).loc main_arg5)))) (m ((c : Thread nD τ).loc main_arg6)) :=
  (W4_arr m ρ c 2).trans ((Reg2.final (V3 m ρ) c).trans (congrArg₂ prod2 (at3_hidden m ρ c) (at3_arg6 m ρ c)))

/-- After the second host stretch: its aggregation along the edges … -/
theorem at5_agg (c : Dev nD) : W5 m ρ c (Proc.devRef .tc main_v29) = aggregate (m ((c : Thread nD τ).loc main_arg1)) (m ((c : Thread nD τ).loc main_arg2)) (m ((c : Thread nD τ).loc main_arg3)) (prod2 (rowBiasRelu (aggregate (m ((c : Thread nD τ).loc main_arg1)) (m ((c : Thread nD τ).loc main_arg2)) (m ((c : Thread nD τ).loc main_arg3)) (prod1 (m ((c : Thread nD τ).loc main_arg0)) (m ((c : Thread nD τ).loc main_arg4)))) (asRow (m ((c : Thread nD τ).loc main_arg5)))) (m ((c : Thread nD τ).loc main_arg6))) :=
  (HostStretch.second_aggregate (W4 m ρ c)).trans (by
    rw [at4_arg1 m ρ c, at4_arg2 m ρ c, at4_arg3 m ρ c, at4_prod m ρ c])

/-- … and the second bias as a row. -/
theorem at5_row (c : Dev nD) : W5 m ρ c (Proc.devRef .tc main_v30) = asRow (m ((c : Thread nD τ).loc main_arg7)) :=
  (HostStretch.second_row (W4 m ρ c)).trans (by rw [at4_arg7 m ρ c])

/-- After the fourth region the result array holds the two layers of the arguments. -/
theorem result (c : Dev nD) : W6 m ρ c (Proc.devRef .tc main_v31)
    = layers (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_arr m ρ c 2).trans ((Reg3.final (V5 m ρ) c).trans (congrArg₂ rowBias (at5_agg m ρ c) (at5_row m ρ c)))

end Cert.KernelIdeal.Whole

end
-- ==== Proof.RefValue.lean ====
/-
  The reference computes the same two layers.

  Stage by stage: the host's first matrix product is the sum over `k` of `x (r, k) · W1 (k, j)`; its gather, product and
  scatter-add are the sparse aggregation of that product; the bias, broadcast first to one row and then down the
  rows, adds `b (j)` at entry `(r, j)` — the same entry the one-row layout of the bias holds at `(0, j)` —, and the
  maximum with the broadcast zero clamps it; the second product, aggregation and bias repeat this over the first
  layer's output. So the reference's result is `layers` of its arguments.
-/
import proofs.«152942_j82660940579212_1_alg».proof.Proof.Gen.ReferenceIdeal.Read
import proofs.«152942_j82660940579212_1_alg».proof.Proof.Spec
import Idealize.ShloMosaic.Lib.ValueLayout

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The host's first product, entry by entry. -/
theorem first_product (x0 : (⟨S50000x128, .f32⟩ : BufTy).Contents (Elt Ideal)) (x4 : (⟨S128x64, .f32⟩ : BufTy).Contents (Elt Ideal)) :
    val_main_v0 (F := Ideal) x0 x4 = Cert.KernelIdeal.Spec.prod1 x0 x4 := by
  funext i
  rw [val_main_v0_apply]
  unfold Cert.KernelIdeal.Spec.prod1
  refine Finset.sum_congr rfl fun k _ => ?_
  have el : lidx_main_v0 i k = ix2 (n0 := 50000) (i 0) k :=
    funext fun a => Fin.ext (by match a with | ⟨0, _⟩ => rfl | ⟨1, _⟩ => rfl)
  have er : ridx_main_v0 i k = ix2 (n1 := 64) k (i 1) :=
    funext fun a => Fin.ext (by match a with | ⟨0, _⟩ => rfl | ⟨1, _⟩ => rfl)
  rw [el, er]

/-- The host's gather, product and scatter-add are the aggregation of the first product along the edges. -/
theorem first_aggregate (x0 : (⟨S50000x128, .f32⟩ : BufTy).Contents (Elt Ideal)) (x1 x2 : (⟨S800000, .i32⟩ : BufTy).Contents (Elt Ideal)) (x3 : (⟨S800000, .f32⟩ : BufTy).Contents (Elt Ideal)) (x4 : (⟨S128x64, .f32⟩ : BufTy).Contents (Elt Ideal)) :
    val_main_v13 (F := Ideal) x0 x1 x2 x3 x4 = Cert.KernelIdeal.Spec.aggregate x1 x2 x3 (val_main_v0 (F := Ideal) x0 x4) := rfl

/-- The bias row at `(0, j)` is the bias at `j`. -/
theorem row_apply (b : (⟨S64, .f32⟩ : BufTy).Contents (Elt Ideal)) (q : Fin 64) :
    Cert.KernelIdeal.Spec.asRow b (ix2 (n0 := 1) 0 q) = b (ix1 q) := by
  unfold Cert.KernelIdeal.Spec.asRow
  exact shapeCast_a_1a_apply (a := 64) b _ 0 q

/-- The first layer's output: the aggregate plus the bias, against zero. -/
theorem hidden (x0 : (⟨S50000x128, .f32⟩ : BufTy).Contents (Elt Ideal)) (x1 x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) :
    val_main_v17 (F := Ideal) x0 x1 x2 x3 x4 x5
      = Cert.KernelIdeal.Spec.rowBiasRelu (val_main_v13 (F := Ideal) x0 x1 x2 x3 x4) (Cert.KernelIdeal.Spec.asRow x5) := by
  funext i
  rw [val_main_v17_apply, val_main_v16_apply, val_main_v15_apply, val_main_v14_apply, val_main_call0_v0_apply,
    val_main_call0_cst_apply]
  unfold Cert.KernelIdeal.Spec.rowBiasRelu
  rw [row_apply x5 (i 1)]
  have e : idx_main_v14 (idx_main_v15 i) = ix1 (n := 64) (i 1) :=
    funext fun a => Fin.ext (by match a with | ⟨0, _⟩ => rfl)
  rw [e]
  rfl

/-- The host's second product, entry by entry. -/
theorem second_product (x0 : (⟨S50000x128, .f32⟩ : BufTy).Contents (Elt Ideal)) (x1 x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) :
    val_main_v18 (F := Ideal) x0 x1 x2 x3 x4 x5 x6 = Cert.KernelIdeal.Spec.prod2 (val_main_v17 (F := Ideal) x0 x1 x2 x3 x4 x5) x6 := by
  funext i
  rw [val_main_v18_apply]
  unfold Cert.KernelIdeal.Spec.prod2
  refine Finset.sum_congr rfl fun k _ => ?_
  have el : lidx_main_v18 i k = ix2 (n0 := 50000) (i 0) k :=
    funext fun a => Fin.ext (by match a with | ⟨0, _⟩ => rfl | ⟨1, _⟩ => rfl)
  have er : ridx_main_v18 i k = ix2 (n1 := 64) k (i 1) :=
    funext fun a => Fin.ext (by match a with | ⟨0, _⟩ => rfl | ⟨1, _⟩ => rfl)
  rw [el, er]

/-- The second aggregation. -/
theorem second_aggregate (x0 : (⟨S50000x128, .f32⟩ : BufTy).Contents (Elt Ideal)) (x1 x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) :
    val_main_v31 (F := Ideal) x0 x1 x2 x3 x4 x5 x6 = Cert.KernelIdeal.Spec.aggregate x1 x2 x3 (val_main_v18 (F := Ideal) x0 x1 x2 x3 x4 x5 x6) := rfl

/-- The result: the second aggregate plus the second bias. -/
theorem output (x0 : (⟨S50000x128, .f32⟩ : BufTy).Contents (Elt Ideal)) (x1 x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v34 (F := Ideal) x0 x1 x2 x3 x4 x5 x6 x7
      = Cert.KernelIdeal.Spec.rowBias (val_main_v31 (F := Ideal) x0 x1 x2 x3 x4 x5 x6) (Cert.KernelIdeal.Spec.asRow x7) := by
  funext i
  rw [val_main_v34_apply, val_main_v33_apply, val_main_v32_apply]
  unfold Cert.KernelIdeal.Spec.rowBias
  rw [row_apply x7 (i 1)]
  have e : idx_main_v32 (idx_main_v33 i) = ix1 (n := 64) (i 1) :=
    funext fun a => Fin.ext (by match a with | ⟨0, _⟩ => rfl)
  rw [e]
  rfl

/-- The reference's result is the two layers of its arguments. -/
theorem whole (x0 : (⟨S50000x128, .f32⟩ : BufTy).Contents (Elt Ideal)) (x1 x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v34 (F := Ideal) x0 x1 x2 x3 x4 x5 x6 x7 = Cert.KernelIdeal.Spec.layers x0 x1 x2 x3 x4 x5 x6 x7 := by
  unfold Cert.KernelIdeal.Spec.layers
  rw [output, second_aggregate, second_product, hidden, first_aggregate, first_product]

end Cert.ReferenceIdeal.RefValue

end
-- ==== Proof.lean ====
/-
  Two graph-convolution layers computed by four kernel launches against the same two layers written with whole-array
  operations: equal results on the extended reals.

  A layer is `aggregate (z · W) + b`: a matrix product, a sparse aggregation of the product's rows along 800000 weighted
  edges, and a bias added to every row; the first layer is then clamped below at zero. The kernel program computes each
  product in 25 blocks of 2000 rows — each block's operands rounded to a narrower float format, which changes nothing
  on the extended reals, and multiplied into a zero accumulator, so a block's entry is exactly the sum over `k` of
  `z (r, k) · W (k, j)` — and adds each bias, held as one row, in 25 blocks of 2000 rows as well; the blocks tile the
  50000 rows, so each launch leaves the whole-array function of what it read. Between the launches both programs apply
  the same aggregation to the same arguments. The reference's products are the same sums, its bias broadcast reads
  the same entry of the bias at every row, and its clamp is the same maximum with zero. Only `0 + s = s` is used of the
  arithmetic, so the inputs' finiteness is never needed.

  The three frames are the programs' runs with the values dropped; the kernel's idealization rewrote no operation, so
  it has nothing to preserve.
-/
import proofs.«152942_j82660940579212_1_alg».proof.Defs
import proofs.«152942_j82660940579212_1_alg».proof.Proof.Gen.Kernel
import proofs.«152942_j82660940579212_1_alg».proof.Proof.Gen.Kernel.Frame
import proofs.«152942_j82660940579212_1_alg».proof.Proof.Gen.KernelIdeal
import proofs.«152942_j82660940579212_1_alg».proof.Proof.Gen.KernelIdeal.Frame
import proofs.«152942_j82660940579212_1_alg».proof.Proof.Gen.ReferenceIdeal
import proofs.«152942_j82660940579212_1_alg».proof.Proof.Gen.ReferenceIdeal.Run
import proofs.«152942_j82660940579212_1_alg».proof.Proof.Gen.ReferenceIdeal.Read
import proofs.«152942_j82660940579212_1_alg».proof.Proof.Gen.Pre_finite_inputs
import proofs.«152942_j82660940579212_1_alg».proof.Proof.KRun
import proofs.«152942_j82660940579212_1_alg».proof.Proof.KValue
import proofs.«152942_j82660940579212_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, and keeps its arguments. -/
theorem frame_kernel : Cert.frame_Kernel := fun m ρ _ => Cert.Kernel.Gen.frame m ρ

/-- The idealized kernel program runs, and keeps its arguments. -/
theorem frame_kernelIdeal : Cert.frame_KernelIdeal := fun m ρ _ => Cert.KernelIdeal.Gen.frame m ρ

/-- The idealized reference runs, and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the two layers of their (equal) arguments in their result arrays. -/
theorem algebraic : Cert.algebraic_KernelIdeal_ReferenceIdeal := by
  intro m ρ m' ρ' _ hagree
  refine ⟨fun c => Cert.KernelIdeal.Spec.layers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v34_eq, Cert.ReferenceIdeal.RefValue.whole,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
